-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v27_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v27_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40x128 .f32) (main_arg6 : FVec F S40x128 .f32) (main_arg7 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S40x128 .f32 := Host.absf main_arg5
  let main_cst_6 : FVec F S_ .f32 := constant S_ .f32 0x7F800000#32
  let main_v20 : FVec F S40x128 .f32 := broadcastInDim S40x128 ![] bcast_S_S40x128 main_cst_6
  let main_v21 : IVec S40x128 1 := cmpf .olt main_v19 main_v20
  let main_c_7 : IVec S_ 1 := constantI S_ 1 1#1
  let main_v22 : IVec S_ 1 := (fun x v => Host.reduce IntOp.andi x v reducesTo_S40x128_S_d0_1 h_S_) main_v21 main_c_7
  let main_v23 : IVec S_ 1 := andi main_v18 main_v22
  let main_v24 : FVec F S40x128 .f32 := Host.absf main_arg6
  let main_cst_8 : FVec F S_ .f32 := constant S_ .f32 0x7F800000#32
  let main_v25 : FVec F S40x128 .f32 := broadcastInDim S40x128 ![] bcast_S_S40x128 main_cst_8
  let main_v26 : IVec S40x128 1 := cmpf .olt main_v24 main_v25
  let main_c_9 : IVec S_ 1 := constantI S_ 1 1#1
  let main_v27 : IVec S_ 1 := (fun x v => Host.reduce IntOp.andi x v reducesTo_S40x128_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S40x128 .f32) (main_arg6 : FVec F S40x128 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩
abbrev S128x40 : Shape := ⟨2, ![128, 40]⟩
abbrev S1x40 : Shape := ⟨2, ![1, 40]⟩
abbrev S50000x40 : Shape := ⟨2, ![50000, 40]⟩
abbrev S2000x40 : Shape := ⟨2, ![2000, 40]⟩

abbrev nBuf : Space → Nat
  | .hbm => 65
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S40x128, .f32⟩
  | .hbm, ⟨6, _⟩ => ⟨S40x128, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S128x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S128x40, .f32⟩
  | .hbm, ⟨62, _⟩ => ⟨S128x40, .f32⟩
  | .hbm, ⟨63, _⟩ => ⟨S1x40, .f32⟩
  | .hbm, ⟨64, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x40, .f32⟩
  | .local _ .vmem, ⟨16, _⟩ => ⟨S128x40, .f32⟩
  | .local _ .vmem, ⟨17, _⟩ => ⟨S1x40, .f32⟩
  | .local _ .vmem, ⟨18, _⟩ => ⟨S2000x40, .f32⟩
  | .local _ .vmem, ⟨19, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27_0 : Ref sig .tc := ⟨.hbm, 44, rfl⟩
abbrev main_v27_1 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  transposes_S40x128_S128x40_1_0 : S40x128.Transposes [1, 0] S128x40
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x40.size a ≤ S128x40.size a
  hwx1_3 : ∀ i : grid1.Coords, EltTy.bits .f32 = 32 ∨ (Rect.block (s := S128x40) S128x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x40.size a ≤ S50000x40.size a
  hwx1_5 : ∀ i : grid1.Coords, EltTy.bits .f32 = 32 ∨ (Rect.block (s := S50000x40) S2000x40.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_v23) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v27_1) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v39) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27_1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S128x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S2000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x40 : Shape := ⟨2, ![128, 40]⟩
abbrev S50000x40 : Shape := ⟨2, ![50000, 40]⟩
abbrev S1x40 : Shape := ⟨2, ![1, 40]⟩

abbrev nBuf : Space → Nat
  | .hbm => 83
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S40x128, .f32⟩
  | .hbm, ⟨6, _⟩ => ⟨S40x128, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S128x128, .f32⟩
  | .hbm, ⟨39, _⟩ => ⟨S50000x128, .f32⟩
  | .hbm, ⟨40, _⟩ => ⟨S128x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S128x40, .f32⟩
  | .hbm, ⟨76, _⟩ => ⟨S50000x40, .f32⟩
  | .hbm, ⟨77, _⟩ => ⟨S128x40, .f32⟩
  | .hbm, ⟨78, _⟩ => ⟨S50000x40, .f32⟩
  | .hbm, ⟨79, _⟩ => ⟨S50000x40, .f32⟩
  | .hbm, ⟨80, _⟩ => ⟨S1x40, .f32⟩
  | .hbm, ⟨81, _⟩ => ⟨S50000x40, .f32⟩
  | .hbm, ⟨82, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_call2_v0 : Ref sig .tc := ⟨.hbm, 69, rfl⟩
abbrev main_call2_v1 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S40x128_S128x40_1_0 : S40x128.Transposes [1, 0] S128x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KernelRun.lean ====
/-
  The idealized kernel program's run with its two results named. The program is six segments: three stretches of
  host operations, the first layer's grid, one more stretch, the second layer's grid. After the last segment every
  unscoped buffer holds the contents the fold of the segments leaves in it (`W6`): a stretch's results are its
  operations applied to what the stretch found, a grid's arrays are what its write-backs leave, everything else is
  carried over. The run below states exactly that for the two result buffers — the second layer's output (the logits)
  and the first layer's first output (the embedding) — beside the unchanged arguments.
-/
import proofs.«153302_j20804821581834_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the end each result buffer holds what
    the fold of the six segments leaves there, and the arguments are as launched. -/
theorem run : θ_run defs (onTc (τ := τ) (main (F := F))) ⟨m, fun _ => 0, ρ⟩ (fun r => ∀ c : Dev nD,
      r.2.mem ((c.tc : Thread nD τ).loc main_v43) = W6 m ρ c (Proc.devRef .tc main_v43)
      ∧ r.2.mem ((c.tc : Thread nD τ).loc main_v27_0) = W6 m ρ c (Proc.devRef .tc main_v27_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v43 (by decide)),
       h c _ (mem_uc main_v27_0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Named

end
-- ==== Proof.LibPlainProduct.lean ====
/-
  A plain matrix product read at an entry. Dimension numbers that contract the left operand's second axis with the
  right operand's first, with no batch axis — M×K by K×N — make both the device's matrix unit accumulating into zero
  and the host's general contraction, on the extended reals, the textbook sum: entry (i, j) of the product is the sum
  over k < K of A(i, k) · B(k, j). Nothing else is left of either operation there: no accumulator, no rounding, no
  order of summation. The statements hold for ANY record with those dimension numbers, whatever its name and extents.
-/
import Idealize.ShloMosaic.PureOps.Ideal.Laws
import Idealize.ShloMosaic.Lib.ValueIdx

noncomputable section

namespace Cert.Lib.PlainProduct

open Idealize.ShloMosaic Idealize.ShloMosaic.ValueIdx
open scoped BigOperators

variable {M K N : ℕ} (d : DotDims ⟨2, ![M, K]⟩ ⟨2, ![K, N]⟩ ⟨2, ![M, N]⟩)

/-- The dimension numbers of a plain product: the left operand's axis 1 is contracted with the right operand's axis 0;
    the left operand's axis 0 and the right operand's axis 1 are kept, in this order; there is no batch axis. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The left operand's row coordinate is the result's row coordinate. -/
theorem lhsIdx_row (h : IsPlain d) (j : (⟨2, ![M, N]⟩ : Shape).Idx) (q : d.contr.Idx) :
    (d.lhsIdx j q 0).val = (j 0).val := by
  unfold DotDims.lhsIdx
  rw [dif_neg (show ¬ (0 : Fin (⟨2, ![M, K]⟩ : Shape).rank) ∈ d.lhsBatch by rw [h.lb]; simp),
    dif_pos (show (0 : Fin (⟨2, ![M, K]⟩ : Shape).rank) ∈ d.lhsNonContracting by rw [h.ln]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 0 _ Nat.two_pos (by simp [h.lb, h.ln])

/-- The right operand's column coordinate is the result's column coordinate. -/
theorem rhsIdx_col (h : IsPlain d) (j : (⟨2, ![M, N]⟩ : Shape).Idx) (q : d.contr.Idx) :
    (d.rhsIdx j q 1).val = (j 1).val := by
  unfold DotDims.rhsIdx
  rw [dif_neg (show ¬ (1 : Fin (⟨2, ![K, N]⟩ : Shape).rank) ∈ d.rhsBatch by rw [h.rb]; simp),
    dif_pos (show (1 : Fin (⟨2, ![K, N]⟩ : Shape).rank) ∈ d.rhsNonContracting by rw [h.rn]; simp)]
  simp only [Fin.val_cast]
  have key : ∀ (p p' : ℕ) (hp : p < (⟨2, ![M, N]⟩ : Shape).rank) (hp' : p' < (⟨2, ![M, N]⟩ : Shape).rank), p = p' →
      (j ⟨p, hp⟩).val = (j ⟨p', hp'⟩).val := fun p p' hp hp' e => by subst e; rfl
  exact key _ 1 _ Nat.one_lt_two (by simp [h.lb, h.ln, h.rn])

/-- At contraction coordinate `k` the left operand is read at (i, k). -/
theorem lhsIdx_eq (hr : d.contr.rank = 1) (hs : d.contr.size ⟨0, by omega⟩ = K) (h : IsPlain d) (i : Fin M) (j : Fin N) (k : Fin K) :
    d.lhsIdx (ix2 i j) ((contrEquiv1 d K hr hs).symm k) = ix2 i k :=
  funext fun a => Fin.ext (by
    match a with
    | ⟨0, _⟩ => exact lhsIdx_row h _ _
    | ⟨1, _⟩ => exact (d.lhsIdx_val_of_single h.lc _ _).trans (contrEquiv1_symm_val d K hr hs k))

/-- At contraction coordinate `k` the right operand is read at (k, j). -/
theorem rhsIdx_eq (hr : d.contr.rank = 1) (hs : d.contr.size ⟨0, by omega⟩ = K) (h : IsPlain d) (i : Fin M) (j : Fin N) (k : Fin K) :
    d.rhsIdx (ix2 i j) ((contrEquiv1 d K hr hs).symm k) = ix2 k j :=
  funext fun a => Fin.ext (by
    match a with
    | ⟨0, _⟩ => exact (d.rhsIdx_val_of_single h.rc _ _).trans (contrEquiv1_symm_val d K hr hs k)
    | ⟨1, _⟩ => exact rhsIdx_col h _ _)

/-- The matrix unit accumulating into zero: entry (i, j) is the sum over k of A(i, k) · B(k, j). -/
theorem matmul_zero_apply {φ₁ φ₂ : FTy} (h : IsPlain d) (hr : d.contr.rank = 1) (hs : d.contr.size ⟨0, by omega⟩ = K)
    (prec : Option ContractPrecision)
    (A : FVec Ideal ⟨2, ![M, K]⟩ φ₁) (B : FVec Ideal ⟨2, ![K, N]⟩ φ₂) (i : Fin M) (j : Fin N) :
    FloatOps.matmul d prec A B (constant ⟨2, ![M, N]⟩ .f32 0x00000000#32) (ix2 i j)
      = ∑ k : Fin K, A (ix2 i k) * B (ix2 k j) := by
  rw [Ideal.matmul_constant_zero_apply, ← Equiv.sum_comp (contrEquiv1 d K hr hs).symm]
  exact Finset.sum_congr rfl fun k _ => by rw [lhsIdx_eq hr hs h, rhsIdx_eq hr hs h]

/-- The host's general contraction: entry (i, j) is the same sum, whatever the schedule. -/
theorem dotGeneral_apply {φ₁ φ₂ : FTy} (h : IsPlain d) (hr : d.contr.rank = 1) (hs : d.contr.size ⟨0, by omega⟩ = K)
    (prec : Option ContractPrecision) (sched : HostSchedule)
    (A : FVec Ideal ⟨2, ![M, K]⟩ φ₁) (B : FVec Ideal ⟨2, ![K, N]⟩ φ₂) (i : Fin M) (j : Fin N) :
    FloatOps.dotGeneral d prec sched A B (ix2 i j) = ∑ k : Fin K, A (ix2 i k) * B (ix2 k j) := by
  rw [Ideal.dotGeneral_apply, ← Equiv.sum_comp (contrEquiv1 d K hr hs).symm]
  exact Finset.sum_congr rfl fun k _ => by rw [lhsIdx_eq hr hs h, rhsIdx_eq hr hs h]

end Cert.Lib.PlainProduct

end
-- ==== Proof.DenseLayer.lean ====
/-
  The dense stage of one mean-aggregation graph layer, on the extended reals, entry by entry.

  Entry (i, j) of the stage's result is
      ( Σ_k mean(i, k) · Wl(k, j)  +  Σ_k x(i, k) · Wr(k, j) )  +  b(0, j),
  with the weights already transposed to [D, O] and the bias laid out as a row [1, O]. The device computes it on
  row blocks with its matrix unit accumulating into zero (the operands cast to a narrower float format first, which
  changes nothing on the extended reals); the host computes it with two general contractions and a broadcast row.
  Both are this one sum. The neighbourhood mean itself is the neighbourhood sum scaled per row: the device side
  multiplies by the reciprocal 1 / c(i) of the clipped count, the host side divides by c(i); on the extended reals the
  two agree as soon as c(i) ≠ 0, because x / c is x · c⁻¹ there and 1 / c is 1 · c⁻¹ — no finiteness is needed.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import proofs.«153302_j20804821581834_1_alg».proof.Proof.LibPlainProduct

noncomputable section

namespace Cert.Sage

open Idealize.ShloMosaic Idealize.ShloMosaic.ValueIdx Cert.Lib.PlainProduct
open scoped BigOperators

variable {N D O : ℕ}

/-- Entry (i, j) of mean · Wl + x · Wr + b, the weights given as [D, O] matrices and the bias as a row. -/
def denseEntry (mean x : (⟨2, ![N, D]⟩ : Shape).Idx → EReal) (wl wr : (⟨2, ![D, O]⟩ : Shape).Idx → EReal)
    (b : (⟨2, ![1, O]⟩ : Shape).Idx → EReal) (i : Fin N) (j : Fin O) : EReal :=
  (∑ k : Fin D, mean (ix2 i k) * wl (ix2 k j) + ∑ k : Fin D, x (ix2 i k) * wr (ix2 k j)) + b (ix2 (0 : Fin 1) j)

/-- The entry depends on the mean only through its values, and on the bias row only through its entries. -/
theorem denseEntry_congr {mean mean' x : (⟨2, ![N, D]⟩ : Shape).Idx → EReal} {wl wr : (⟨2, ![D, O]⟩ : Shape).Idx → EReal}
    {b b' : (⟨2, ![1, O]⟩ : Shape).Idx → EReal} (hm : mean = mean') (i : Fin N) (j : Fin O)
    (hb : b (ix2 (0 : Fin 1) j) = b' (ix2 (0 : Fin 1) j)) :
    denseEntry mean x wl wr b i j = denseEntry mean' x wl wr b' i j := by
  unfold denseEntry
  rw [hm, hb]

/-- The whole result matrix of the stage, as one function of the operand arrays. -/
def denseFn (mean x : (⟨2, ![N, D]⟩ : Shape).Idx → EReal) (wl wr : (⟨2, ![D, O]⟩ : Shape).Idx → EReal)
    (b : (⟨2, ![1, O]⟩ : Shape).Idx → EReal) : (⟨2, ![N, O]⟩ : Shape).Idx → EReal :=
  fun i => denseEntry mean x wl wr b (i 0) (i 1)

/-- The rectified matrix: every entry's maximum with the value of the zero word. -/
def reluFn (e : (⟨2, ![N, O]⟩ : Shape).Idx → EReal) : (⟨2, ![N, O]⟩ : Shape).Idx → EReal :=
  fun i => max (e i) (Ideal.ofBits .f32 0x00000000#32)

/-- A row block computes the rows of the whole matrix it holds: if row p of the block's two left operands is row a
    of the whole left operands, entry (p, q) of the block's result is entry (a, q) of the whole result. -/
theorem denseEntry_block {M : ℕ} (A0 A1 : (⟨2, ![N, D]⟩ : Shape).Idx → EReal) (x0 x1 : (⟨2, ![M, D]⟩ : Shape).Idx → EReal)
    (w0 w1 W0 W1 : (⟨2, ![D, O]⟩ : Shape).Idx → EReal) (b B : (⟨2, ![1, O]⟩ : Shape).Idx → EReal)
    (p : Fin M) (a : Fin N) (q : Fin O)
    (h0 : ∀ k : Fin D, x0 (ix2 p k) = A0 (ix2 a k)) (h1 : ∀ k : Fin D, x1 (ix2 p k) = A1 (ix2 a k))
    (hw0 : ∀ k : Fin D, w0 (ix2 k q) = W0 (ix2 k q)) (hw1 : ∀ k : Fin D, w1 (ix2 k q) = W1 (ix2 k q))
    (hb : b (ix2 (0 : Fin 1) q) = B (ix2 (0 : Fin 1) q)) :
    denseEntry x0 x1 w0 w1 b p q = denseEntry A0 A1 W0 W1 B a q := by
  unfold denseEntry
  rw [hb]
  refine congrArg (· + B (ix2 (0 : Fin 1) q)) ?_
  refine congrArg₂ (· + ·) (Finset.sum_congr rfl fun k _ => ?_) (Finset.sum_congr rfl fun k _ => ?_)
  · rw [h0, hw0]
  · rw [h1, hw1]

/-- The whole result depends on its operands only through their values, and on the bias row only through its entries. -/
theorem denseFn_congr {mean mean' x x' : (⟨2, ![N, D]⟩ : Shape).Idx → EReal} {wl wl' wr wr' : (⟨2, ![D, O]⟩ : Shape).Idx → EReal}
    {b b' : (⟨2, ![1, O]⟩ : Shape).Idx → EReal} (hm : mean = mean') (hx : x = x') (hl : wl = wl') (hr : wr = wr')
    (hb : ∀ j : Fin O, b (ix2 (0 : Fin 1) j) = b' (ix2 (0 : Fin 1) j)) :
    denseFn mean x wl wr b = denseFn mean' x' wl' wr' b' := by
  subst hm hx hl hr
  funext i
  exact denseEntry_congr rfl _ _ (hb _)

/-- The device's block computation: two matrix-unit products into zero accumulators, added, plus the bias row
    broadcast down the block. -/
theorem body_entry (d : DotDims ⟨2, ![N, D]⟩ ⟨2, ![D, O]⟩ ⟨2, ![N, O]⟩) (hd : IsPlain d) (hr : d.contr.rank = 1)
    (hs : d.contr.size ⟨0, by omega⟩ = D) {φ : FTy}
    (a0 a1 : FVec Ideal ⟨2, ![N, D]⟩ φ) (w0 w1 : FVec Ideal ⟨2, ![D, O]⟩ φ) (b : FVec Ideal ⟨2, ![1, O]⟩ .f32)
    (hb : (⟨2, ![1, O]⟩ : Shape).Broadcasts ⟨2, ![N, O]⟩) (i : Fin N) (j : Fin O) :
    addf (addf (matmul d none a0 w0 (constant ⟨2, ![N, O]⟩ .f32 0x00000000#32))
               (matmul d none a1 w1 (constant ⟨2, ![N, O]⟩ .f32 0x00000000#32)))
         (broadcastTo ⟨2, ![N, O]⟩ b hb) (ix2 i j)
      = denseEntry a0 a1 w0 w1 b i j := by
  show (FloatOps.matmul d none a0 w0 (constant ⟨2, ![N, O]⟩ .f32 0x00000000#32) (ix2 i j)
        + FloatOps.matmul d none a1 w1 (constant ⟨2, ![N, O]⟩ .f32 0x00000000#32) (ix2 i j))
      + broadcastTo ⟨2, ![N, O]⟩ b hb (ix2 i j) = _
  rw [matmul_zero_apply hd hr hs, matmul_zero_apply hd hr hs, broadcastTo_1b_ab_apply]
  rfl

/-- The host's computation: two general contractions, added, plus the bias row broadcast down the matrix. -/
theorem host_entry (d : DotDims ⟨2, ![N, D]⟩ ⟨2, ![D, O]⟩ ⟨2, ![N, O]⟩) (hd : IsPlain d) (hr : d.contr.rank = 1)
    (hs : d.contr.size ⟨0, by omega⟩ = D)
    (mean x : FVec Ideal ⟨2, ![N, D]⟩ .f32) (wl wr : FVec Ideal ⟨2, ![D, O]⟩ .f32) (b : FVec Ideal ⟨2, ![1, O]⟩ .f32)
    (hb : (⟨2, ![1, O]⟩ : Shape).BroadcastsInDim ⟨2, ![N, O]⟩ ![0, 1]) (i : Fin N) (j : Fin O) :
    addf (addf (Host.dotGeneral d none mean wl) (Host.dotGeneral d none x wr))
         (broadcastInDim ⟨2, ![N, O]⟩ ![0, 1] hb b) (ix2 i j)
      = denseEntry mean x wl wr b i j := by
  show (FloatOps.dotGeneral d none .single mean wl (ix2 i j) + FloatOps.dotGeneral d none .single x wr (ix2 i j))
      + broadcastInDim ⟨2, ![N, O]⟩ ![0, 1] hb b (ix2 i j) = _
  rw [dotGeneral_apply hd hr hs, dotGeneral_apply hd hr hs,
    broadcastInDim_apply ![0, 1] hb b (ix2 i j) (ix2 (0 : Fin 1) j) (fun a => by
      match a with
      | ⟨0, _⟩ => show 0 = if (1 : ℕ) = 1 then 0 else i.val; rw [if_pos rfl]
      | ⟨1, _⟩ =>
        show j.val = if O = 1 then 0 else j.val
        split
        · have := j.isLt; omega
        · rfl)]
  rfl

/-- A per-row quantity [N], laid out as a column [N, 1] and then broadcast along the rows to [N, D], read at (i, k),
    is the quantity at i. -/
theorem column_spread_apply {α : Type} (v : (⟨1, ![N]⟩ : Shape).Idx → α)
    (h1 : (⟨1, ![N]⟩ : Shape).BroadcastsInDim ⟨2, ![N, 1]⟩ ![0])
    (h2 : (⟨2, ![N, 1]⟩ : Shape).BroadcastsInDim ⟨2, ![N, D]⟩ ![0, 1]) (i : Fin N) (k : Fin D) :
    broadcastInDim ⟨2, ![N, D]⟩ ![0, 1] h2 (broadcastInDim ⟨2, ![N, 1]⟩ ![0] h1 v) (ix2 i k) = v (ix1 i) := by
  rw [broadcastInDim_apply ![0, 1] h2 _ (ix2 i k) (ix2 i (0 : Fin 1)) (fun a => by
      match a with
      | ⟨0, _⟩ =>
        show i.val = if N = 1 then 0 else i.val
        split
        · have := i.isLt; omega
        · rfl
      | ⟨1, _⟩ => show 0 = if (1 : ℕ) = 1 then 0 else k.val; rw [if_pos rfl]),
    broadcastInDim_apply ![0] h1 v (ix2 i (0 : Fin 1)) (ix1 i) (fun a => by
      match a with
      | ⟨0, _⟩ =>
        show i.val = if N = 1 then 0 else i.val
        split
        · have := i.isLt; omega
        · rfl)]

/-- Scaling by the reciprocal of a nonzero extended real is dividing by it. -/
theorem mul_recip_eq_div (a c : EReal) (hc : c ≠ 0) : a * Ideal.div 1 c = Ideal.div a c := by
  unfold Ideal.div
  rw [if_neg hc, if_neg hc, one_mul]

/-- The neighbourhood sums scaled row by row by the reciprocal of the clipped count are the sums divided by it. -/
theorem mean_scale (agg : FVec Ideal ⟨2, ![N, D]⟩ .f32) (one clip : FVec Ideal ⟨1, ![N]⟩ .f32)
    (h1 : (⟨1, ![N]⟩ : Shape).BroadcastsInDim ⟨2, ![N, 1]⟩ ![0])
    (h2 : (⟨2, ![N, 1]⟩ : Shape).BroadcastsInDim ⟨2, ![N, D]⟩ ![0, 1])
    (hone : ∀ i, one i = 1) (hclip : ∀ i, clip i ≠ 0) :
    mulf agg (broadcastInDim ⟨2, ![N, D]⟩ ![0, 1] h2 (broadcastInDim ⟨2, ![N, 1]⟩ ![0] h1 (Host.divf one clip)))
      = Host.divf agg (broadcastInDim ⟨2, ![N, D]⟩ ![0, 1] h2 (broadcastInDim ⟨2, ![N, 1]⟩ ![0] h1 clip)) := by
  funext idx
  obtain ⟨i, k, rfl⟩ : ∃ (i : Fin N) (k : Fin D), idx = ix2 i k := ⟨idx 0, idx 1, eq_ix2 idx⟩
  show agg (ix2 i k) * _ = Ideal.div (agg (ix2 i k)) _
  rw [column_spread_apply, column_spread_apply]
  show agg (ix2 i k) * Ideal.div (one (ix1 i)) (clip (ix1 i)) = _
  rw [hone, mul_recip_eq_div _ _ (hclip _)]

/-- A count clipped below at one is not zero. -/
theorem clip_ne_zero (cnt : FVec Ideal ⟨1, ![N]⟩ .f32) (h : (⟨0, ![]⟩ : Shape).BroadcastsInDim ⟨1, ![N]⟩ ![])
    (i : (⟨1, ![N]⟩ : Shape).Idx) :
    maximumf (broadcastInDim ⟨1, ![N]⟩ ![] h (id (constant (F := Ideal) ⟨0, ![]⟩ .f32 0x3F800000#32))) cnt i ≠ 0 := by
  show max (broadcastInDim ⟨1, ![N]⟩ ![] h (constant (F := Ideal) ⟨0, ![]⟩ .f32 0x3F800000#32) i) (cnt i) ≠ 0
  rw [broadcastInDim_apply ![] h _ i ix0 (fun a => a.elim0)]
  show max (Ideal.ofBits .f32 0x3F800000#32) (cnt i) ≠ 0
  rw [Ideal.ofBits_one_f32]
  exact ne_of_gt (lt_of_lt_of_le zero_lt_one (le_max_left _ _))

/-- The constant one broadcast to a vector is one at every entry. -/
theorem ones_apply (h : (⟨0, ![]⟩ : Shape).BroadcastsInDim ⟨1, ![N]⟩ ![]) (i : (⟨1, ![N]⟩ : Shape).Idx) :
    broadcastInDim ⟨1, ![N]⟩ ![] h (constant (F := Ideal) ⟨0, ![]⟩ .f32 0x3F800000#32) i = 1 := by
  rw [broadcastInDim_apply ![] h _ i ix0 (fun a => a.elim0)]
  exact Ideal.ofBits_one_f32

/-- The rectifier: the device takes the maximum with a splat of the scalar zero, the host with the zero constant
    broadcast to the matrix; at an entry both are the maximum with the zero word's value. -/
theorem relu_host_apply (e : FVec Ideal ⟨2, ![N, O]⟩ .f32) (h : (⟨0, ![]⟩ : Shape).BroadcastsInDim ⟨2, ![N, O]⟩ ![])
    (idx : (⟨2, ![N, O]⟩ : Shape).Idx) :
    maximumf e (broadcastInDim ⟨2, ![N, O]⟩ ![] h (constant (F := Ideal) ⟨0, ![]⟩ .f32 0x00000000#32)) idx
      = max (e idx) (Ideal.ofBits .f32 0x00000000#32) := by
  show max (e idx) (broadcastInDim ⟨2, ![N, O]⟩ ![] h (constant (F := Ideal) ⟨0, ![]⟩ .f32 0x00000000#32) idx) = _
  rw [broadcastInDim_apply ![] h _ idx ix0 (fun a => a.elim0)]
  rfl

end Cert.Sage

end
-- ==== Proof.LayerOne.lean ====
/-
  The first layer's grid, read as values. The grid has 25 points; point t holds rows 2000·t … 2000·t + 1999 of the
  mean matrix and of the feature matrix, the two transposed weight matrices whole and the bias row whole, and writes
  rows 2000·t … 2000·t + 1999 of its two outputs: the dense stage's result (the embedding) and its rectification.
  A row of the result depends only on the same row of the two left operands, so each written block is a block of ONE
  function of the arrays as the grid finds them, and the 25 blocks tile the 50000 rows: after the grid the first output
  array is that function, the second its rectification.
-/
import proofs.«153302_j20804821581834_1_alg».proof.Proof.Gen.KernelIdeal.Frame
import proofs.«153302_j20804821581834_1_alg».proof.Proof.DenseLayer
import Idealize.ShloMosaic.Lib.Pipeline.Value

set_option maxRecDepth 16384

noncomputable section

namespace Cert.KernelIdeal.LayerOne

open Cert.KernelIdeal Cert.KernelIdeal.Gen Cert.Sage Cert.Lib.PlainProduct
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block products contract the left operand's columns with the right operand's rows. -/
theorem plain : IsPlain dot_S2000x128_S128x128_S2000x128_1_0_0_1_n_n := ⟨rfl, rfl, rfl, rfl, rfl, rfl⟩

/-- The body's first stored value at an entry of the block: the dense stage on the block's operands. -/
theorem pay1_entry (x0 x1 : Vec Ideal S2000x128 .f32) (x2 x3 : Vec Ideal S128x128 .f32) (x4 : Vec Ideal S1x128 .f32)
    (p : Fin 2000) (q : Fin 128) :
    k0_pay1 x0 x1 x2 x3 x4 (ix2 p q) = denseEntry (N := 2000) (D := 128) (O := 128) x0 x1 x2 x3 x4 p q := by
  unfold k0_pay1
  simp only [shapeCast_self]
  exact body_entry _ plain rfl rfl _ _ _ _ _ _ p q

/-- The body's second stored value at an entry: the first one rectified. -/
theorem pay2_entry (x0 x1 : Vec Ideal S2000x128 .f32) (x2 x3 : Vec Ideal S128x128 .f32) (x4 : Vec Ideal S1x128 .f32)
    (y : S2000x128.Idx) :
    k0_pay2 x0 x1 x2 x3 x4 y = max (k0_pay1 x0 x1 x2 x3 x4 y) (Ideal.ofBits .f32 0x00000000#32) := rfl

/-- The printed index maps over the grid: the row-blocked windows are at block row t, the others at block (0, 0). -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Point t's block of the mean matrix is its rows 2000·t onward. -/
theorem iblk_0_apply (c : Dev nD) (t : Fin cfg0.N) (y : S2000x128.Idx) (i : S50000x128.Idx)
    (h0 : (i 0).val = t.val * 2000 + (y 0).val) (h1 : (i 1).val = (y 1).val) :
    (iblk0 V c 0 t : Vec Ideal S2000x128 .f32) y = (V c (Pipeline.arrRef spec0 0) : S50000x128.Idx → EReal) i := by
  obtain ⟨e0, e1, -⟩ := idx t
  unfold iblk0
  rw [View.read_apply]
  refine congrArg (V c (Pipeline.arrRef spec0 0) : S50000x128.Idx → EReal) ?_
  funext a
  apply Fin.ext
  match a with
  | ⟨0, _⟩ => show win0_0.index t 0 * 2000 + 1 * (y 0).val = (i 0).val; rw [e0, h0]; omega
  | ⟨1, _⟩ => show win0_0.index t 1 * 128 + 1 * (y 1).val = (i 1).val; rw [e1, h1]; omega

/-- Point t's block of the feature matrix is its rows 2000·t onward. -/
theorem iblk_1_apply (c : Dev nD) (t : Fin cfg0.N) (y : S2000x128.Idx) (i : S50000x128.Idx)
    (h0 : (i 0).val = t.val * 2000 + (y 0).val) (h1 : (i 1).val = (y 1).val) :
    (iblk0 V c 1 t : Vec Ideal S2000x128 .f32) y = (V c (Pipeline.arrRef spec0 1) : S50000x128.Idx → EReal) i := by
  obtain ⟨-, -, e0, e1, -⟩ := idx t
  unfold iblk0
  rw [View.read_apply]
  refine congrArg (V c (Pipeline.arrRef spec0 1) : S50000x128.Idx → EReal) ?_
  funext a
  apply Fin.ext
  match a with
  | ⟨0, _⟩ => show win0_1.index t 0 * 2000 + 1 * (y 0).val = (i 0).val; rw [e0, h0]; omega
  | ⟨1, _⟩ => show win0_1.index t 1 * 128 + 1 * (y 1).val = (i 1).val; rw [e1, h1]; omega

/-- Every point holds the first weight matrix whole. -/
theorem iblk_2_apply (c : Dev nD) (t : Fin cfg0.N) (y : S128x128.Idx) :
    (iblk0 V c 2 t : Vec Ideal S128x128 .f32) y = (V c (Pipeline.arrRef spec0 2) : S128x128.Idx → EReal) y := by
  obtain ⟨-, -, -, -, e0, e1, -⟩ := idx t
  unfold iblk0
  rw [View.read_apply]
  refine congrArg (V c (Pipeline.arrRef spec0 2) : S128x128.Idx → EReal) ?_
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- Every point holds the second weight matrix whole. -/
theorem iblk_3_apply (c : Dev nD) (t : Fin cfg0.N) (y : S128x128.Idx) :
    (iblk0 V c 3 t : Vec Ideal S128x128 .f32) y = (V c (Pipeline.arrRef spec0 3) : S128x128.Idx → EReal) y := by
  obtain ⟨-, -, -, -, -, -, e0, e1, -⟩ := idx t
  unfold iblk0
  rw [View.read_apply]
  refine congrArg (V c (Pipeline.arrRef spec0 3) : S128x128.Idx → EReal) ?_
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

/-- Every point holds the bias row whole. -/
theorem iblk_4_apply (c : Dev nD) (t : Fin cfg0.N) (y : S1x128.Idx) :
    (iblk0 V c 4 t : Vec Ideal S1x128 .f32) y = (V c (Pipeline.arrRef spec0 4) : S1x128.Idx → EReal) y := by
  obtain ⟨-, -, -, -, -, -, -, -, e0, e1, -⟩ := idx t
  unfold iblk0
  rw [View.read_apply]
  refine congrArg (V c (Pipeline.arrRef spec0 4) : S1x128.Idx → EReal) ?_
  funext a
  apply Fin.ext
  match a with
  | ⟨0, _⟩ => show win0_4.index t 0 * 1 + 1 * (y 0).val = (y 0).val; rw [e0]; omega
  | ⟨1, _⟩ => show win0_4.index t 1 * 128 + 1 * (y 1).val = (y 1).val; rw [e1]; omega

/-- The embedding matrix as one function of the arrays the grid finds. -/
def emb (c : Dev nD) : S50000x128.Idx → EReal :=
  denseFn (N := 50000) (D := 128) (O := 128) (V c (Pipeline.arrRef spec0 0)) (V c (Pipeline.arrRef spec0 1))
    (V c (Pipeline.arrRef spec0 2)) (V c (Pipeline.arrRef spec0 3)) (V c (Pipeline.arrRef spec0 4))

/-- What point t computes at an entry of its block is the embedding matrix at the matching entry of the array. -/
theorem point_entry (c : Dev nD) (t : Fin cfg0.N) (y : S2000x128.Idx) (i : S50000x128.Idx)
    (h0 : (i 0).val = t.val * 2000 + (y 0).val) (h1 : (i 1).val = (y 1).val) :
    k0_pay1 (iblk0 V c 0 t) (iblk0 V c 1 t) (iblk0 V c 2 t) (iblk0 V c 3 t) (iblk0 V c 4 t) y = emb V c i := by
  obtain ⟨p, q, rfl⟩ : ∃ (p : Fin 2000) (q : Fin 128), y = ix2 p q := ⟨y 0, y 1, eq_ix2 y⟩
  obtain ⟨a, b, rfl⟩ : ∃ (a : Fin 50000) (b : Fin 128), i = ix2 a b := ⟨i 0, i 1, eq_ix2 i⟩
  obtain rfl : b = q := Fin.ext h1
  refine (pay1_entry (iblk0 V c 0 t) (iblk0 V c 1 t) (iblk0 V c 2 t) (iblk0 V c 3 t) (iblk0 V c 4 t) p b).trans ?_
  exact denseEntry_block (N := 50000) (D := 128) (O := 128) (M := 2000) _ _ _ _ _ _ _ _ _ _ p a b
    (fun k => iblk_0_apply V c t (ix2 p k) (ix2 a k) h0 rfl)
    (fun k => iblk_1_apply V c t (ix2 p k) (ix2 a k) h0 rfl)
    (fun k => iblk_2_apply V c t (ix2 k b))
    (fun k => iblk_3_apply V c t (ix2 k b))
    (iblk_4_apply V c t (ix2 (0 : Fin 1) b))

/-- WHAT POINT t WRITES BACK to the first output is block t of the embedding matrix. -/
theorem flushed_5_eq (c : Dev nD) (t : Fin cfg0.N) :
    (dat0 V c).flushed 5 t = ((cfg0.win 5).blk t).view.read (Elt Ideal) (emb V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨-, -, -, -, -, -, -, -, -, -, e0, e1, -⟩ := idx t
  funext y
  refine point_entry V c t y _ ?_ ?_
  · show win0_5.index t 0 * 2000 + 1 * (y 0).val = t.val * 2000 + (y 0).val; rw [e0]; omega
  · show win0_5.index t 1 * 128 + 1 * (y 1).val = (y 1).val; rw [e1]; omega

/-- WHAT POINT t WRITES BACK to the second output is block t of the rectified embedding matrix. -/
theorem flushed_6_eq (c : Dev nD) (t : Fin cfg0.N) :
    (dat0 V c).flushed 6 t = ((cfg0.win 6).blk t).view.read (Elt Ideal) (reluFn (emb V c)) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x128) hz, View.ld_unit_zero (S := S1x128) hz]
  obtain ⟨-, -, -, -, -, -, -, -, -, -, -, -, e0, e1⟩ := idx t
  funext y
  refine (pay2_entry _ _ _ _ _ y).trans ?_
  refine congrArg (max · (Ideal.ofBits .f32 0x00000000#32)) (point_entry V c t y _ ?_ ?_)
  · show win0_6.index t 0 * 2000 + 1 * (y 0).val = t.val * 2000 + (y 0).val; rw [e0]; omega
  · show win0_6.index t 1 * 128 + 1 * (y 1).val = (y 1).val; rw [e1]; omega

/-- An index of the first output array is in point t's block iff each coordinate is in the block's range. -/
theorem mem_blk_5 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v27_0).slice (win0_5.rect t)).set ↔ _
  rw [View.set_slice_whole, Rect.mem_set_unit]
  exact Iff.rfl

theorem mem_blk_6 (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v27_1).slice (win0_6.rect t)).set ↔ _
  rw [View.set_slice_whole, Rect.mem_set_unit]
  exact Iff.rfl

/-- The point whose block holds row r is r / 2000. -/
def pointOf (i : S50000x128.Idx) : Fin cfg0.N :=
  ⟨(i 0).val / 2000, by have h : (i 0).val < 50000 := (i 0).isLt; rw [show cfg0.N = 25 from N_0]; omega⟩

/-- THE FIRST OUTPUT ARRAY after the grid is the embedding matrix. -/
theorem final_5 (c : Dev nD) : (dat0 V c).arrAt 5 cfg0.N = emb V c :=
  (dat0 V c).arrAt_eq_of_cover 5 (emb V c) (fun t _ => flushed_5_eq V c t) fun i =>
    ⟨pointOf i, flush0_5 _, (mem_blk_5 _ i).mpr fun a => by
      obtain ⟨-, -, -, -, -, -, -, -, -, -, e0, e1, -⟩ := idx (pointOf i)
      have h0 : (i 0).val < 50000 := (i 0).isLt
      have h1 : (i 1).val < 128 := (i 1).isLt
      have hp : (pointOf i).val = (i 0).val / 2000 := rfl
      match a with
      | ⟨0, _⟩ => show win0_5.index (pointOf i) 0 * 2000 ≤ (i 0).val ∧ (i 0).val < win0_5.index (pointOf i) 0 * 2000 + 2000; rw [e0, hp]; omega
      | ⟨1, _⟩ => show win0_5.index (pointOf i) 1 * 128 ≤ (i 1).val ∧ (i 1).val < win0_5.index (pointOf i) 1 * 128 + 128; rw [e1]; omega⟩

/-- THE SECOND OUTPUT ARRAY after the grid is the rectified embedding matrix. -/
theorem final_6 (c : Dev nD) : (dat0 V c).arrAt 6 cfg0.N = reluFn (emb V c) :=
  (dat0 V c).arrAt_eq_of_cover 6 (reluFn (emb V c)) (fun t _ => flushed_6_eq V c t) fun i =>
    ⟨pointOf i, flush0_6 _, (mem_blk_6 _ i).mpr fun a => by
      obtain ⟨-, -, -, -, -, -, -, -, -, -, -, -, e0, e1⟩ := idx (pointOf i)
      have h0 : (i 0).val < 50000 := (i 0).isLt
      have h1 : (i 1).val < 128 := (i 1).isLt
      have hp : (pointOf i).val = (i 0).val / 2000 := rfl
      match a with
      | ⟨0, _⟩ => show win0_6.index (pointOf i) 0 * 2000 ≤ (i 0).val ∧ (i 0).val < win0_6.index (pointOf i) 0 * 2000 + 2000; rw [e0, hp]; omega
      | ⟨1, _⟩ => show win0_6.index (pointOf i) 1 * 128 ≤ (i 1).val ∧ (i 1).val < win0_6.index (pointOf i) 1 * 128 + 128; rw [e1]; omega⟩

end Cert.KernelIdeal.LayerOne

end
-- ==== Proof.LayerTwo.lean ====
/-
  The second layer's grid, read as values. Again 25 points; point t holds rows 2000·t … 2000·t + 1999 of the second
  mean matrix and of the hidden features, the two transposed weight matrices [128, 40] and the bias row [1, 40] whole,
  and writes rows 2000·t … 2000·t + 1999 of the logits. Each written block is a block of one function of the arrays as
  the grid finds them, and the blocks tile the 50000 rows: after the grid the output array is that function.
-/
import proofs.«153302_j20804821581834_1_alg».proof.Proof.Gen.KernelIdeal.Frame
import proofs.«153302_j20804821581834_1_alg».proof.Proof.DenseLayer
import Idealize.ShloMosaic.Lib.Pipeline.Value

set_option maxRecDepth 16384

noncomputable section

namespace Cert.KernelIdeal.LayerTwo

open Cert.KernelIdeal Cert.KernelIdeal.Gen Cert.Sage Cert.Lib.PlainProduct
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block products contract the left operand's columns with the right operand's rows. -/
theorem plain : IsPlain dot_S2000x128_S128x40_S2000x40_1_0_0_1_n_n := ⟨rfl, rfl, rfl, rfl, rfl, rfl⟩

/-- The body's stored value at an entry of the block: the dense stage on the block's operands. -/
theorem pay1_entry (x0 x1 : Vec Ideal S2000x128 .f32) (x2 x3 : Vec Ideal S128x40 .f32) (x4 : Vec Ideal S1x40 .f32)
    (p : Fin 2000) (q : Fin 40) :
    k1_pay1 x0 x1 x2 x3 x4 (ix2 p q) = denseEntry (N := 2000) (D := 128) (O := 40) x0 x1 x2 x3 x4 p q := by
  unfold k1_pay1
  simp only [shapeCast_self]
  exact body_entry _ plain rfl rfl _ _ _ _ _ _ p q

/-- The printed index maps over the grid: the row-blocked windows are at block row t, the others at block (0, 0). -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Point t's block of the mean matrix is its rows 2000·t onward. -/
theorem iblk_0_apply (c : Dev nD) (t : Fin cfg1.N) (y : S2000x128.Idx) (i : S50000x128.Idx)
    (h0 : (i 0).val = t.val * 2000 + (y 0).val) (h1 : (i 1).val = (y 1).val) :
    (iblk1 V c 0 t : Vec Ideal S2000x128 .f32) y = (V c (Pipeline.arrRef spec1 0) : S50000x128.Idx → EReal) i := by
  obtain ⟨e0, e1, -⟩ := idx t
  unfold iblk1
  rw [View.read_apply]
  refine congrArg (V c (Pipeline.arrRef spec1 0) : S50000x128.Idx → EReal) ?_
  funext a
  apply Fin.ext
  match a with
  | ⟨0, _⟩ => show win1_0.index t 0 * 2000 + 1 * (y 0).val = (i 0).val; rw [e0, h0]; omega
  | ⟨1, _⟩ => show win1_0.index t 1 * 128 + 1 * (y 1).val = (i 1).val; rw [e1, h1]; omega

/-- Point t's block of the hidden features is their rows 2000·t onward. -/
theorem iblk_1_apply (c : Dev nD) (t : Fin cfg1.N) (y : S2000x128.Idx) (i : S50000x128.Idx)
    (h0 : (i 0).val = t.val * 2000 + (y 0).val) (h1 : (i 1).val = (y 1).val) :
    (iblk1 V c 1 t : Vec Ideal S2000x128 .f32) y = (V c (Pipeline.arrRef spec1 1) : S50000x128.Idx → EReal) i := by
  obtain ⟨-, -, e0, e1, -⟩ := idx t
  unfold iblk1
  rw [View.read_apply]
  refine congrArg (V c (Pipeline.arrRef spec1 1) : S50000x128.Idx → EReal) ?_
  funext a
  apply Fin.ext
  match a with
  | ⟨0, _⟩ => show win1_1.index t 0 * 2000 + 1 * (y 0).val = (i 0).val; rw [e0, h0]; omega
  | ⟨1, _⟩ => show win1_1.index t 1 * 128 + 1 * (y 1).val = (i 1).val; rw [e1, h1]; omega

/-- Every point holds the first weight matrix whole. -/
theorem iblk_2_apply (c : Dev nD) (t : Fin cfg1.N) (y : S128x40.Idx) :
    (iblk1 V c 2 t : Vec Ideal S128x40 .f32) y = (V c (Pipeline.arrRef spec1 2) : S128x40.Idx → EReal) y := by
  obtain ⟨-, -, -, -, e0, e1, -⟩ := idx t
  unfold iblk1
  rw [View.read_apply]
  refine congrArg (V c (Pipeline.arrRef spec1 2) : S128x40.Idx → EReal) ?_
  funext a
  apply Fin.ext
  match a with
  | ⟨0, _⟩ => show win1_2.index t 0 * 128 + 1 * (y 0).val = (y 0).val; rw [e0]; omega
  | ⟨1, _⟩ => show win1_2.index t 1 * 40 + 1 * (y 1).val = (y 1).val; rw [e1]; omega

/-- Every point holds the second weight matrix whole. -/
theorem iblk_3_apply (c : Dev nD) (t : Fin cfg1.N) (y : S128x40.Idx) :
    (iblk1 V c 3 t : Vec Ideal S128x40 .f32) y = (V c (Pipeline.arrRef spec1 3) : S128x40.Idx → EReal) y := by
  obtain ⟨-, -, -, -, -, -, e0, e1, -⟩ := idx t
  unfold iblk1
  rw [View.read_apply]
  refine congrArg (V c (Pipeline.arrRef spec1 3) : S128x40.Idx → EReal) ?_
  funext a
  apply Fin.ext
  match a with
  | ⟨0, _⟩ => show win1_3.index t 0 * 128 + 1 * (y 0).val = (y 0).val; rw [e0]; omega
  | ⟨1, _⟩ => show win1_3.index t 1 * 40 + 1 * (y 1).val = (y 1).val; rw [e1]; omega

/-- Every point holds the bias row whole. -/
theorem iblk_4_apply (c : Dev nD) (t : Fin cfg1.N) (y : S1x40.Idx) :
    (iblk1 V c 4 t : Vec Ideal S1x40 .f32) y = (V c (Pipeline.arrRef spec1 4) : S1x40.Idx → EReal) y := by
  obtain ⟨-, -, -, -, -, -, -, -, e0, e1, -⟩ := idx t
  unfold iblk1
  rw [View.read_apply]
  refine congrArg (V c (Pipeline.arrRef spec1 4) : S1x40.Idx → EReal) ?_
  funext a
  apply Fin.ext
  match a with
  | ⟨0, _⟩ => show win1_4.index t 0 * 1 + 1 * (y 0).val = (y 0).val; rw [e0]; omega
  | ⟨1, _⟩ => show win1_4.index t 1 * 40 + 1 * (y 1).val = (y 1).val; rw [e1]; omega

/-- The logits matrix as one function of the arrays the grid finds. -/
def logits (c : Dev nD) : S50000x40.Idx → EReal :=
  denseFn (N := 50000) (D := 128) (O := 40) (V c (Pipeline.arrRef spec1 0)) (V c (Pipeline.arrRef spec1 1))
    (V c (Pipeline.arrRef spec1 2)) (V c (Pipeline.arrRef spec1 3)) (V c (Pipeline.arrRef spec1 4))

/-- What point t computes at an entry of its block is the logits matrix at the matching entry of the array. -/
theorem point_entry (c : Dev nD) (t : Fin cfg1.N) (y : S2000x40.Idx) (i : S50000x40.Idx)
    (h0 : (i 0).val = t.val * 2000 + (y 0).val) (h1 : (i 1).val = (y 1).val) :
    k1_pay1 (iblk1 V c 0 t) (iblk1 V c 1 t) (iblk1 V c 2 t) (iblk1 V c 3 t) (iblk1 V c 4 t) y = logits V c i := by
  obtain ⟨p, q, rfl⟩ : ∃ (p : Fin 2000) (q : Fin 40), y = ix2 p q := ⟨y 0, y 1, eq_ix2 y⟩
  obtain ⟨a, b, rfl⟩ : ∃ (a : Fin 50000) (b : Fin 40), i = ix2 a b := ⟨i 0, i 1, eq_ix2 i⟩
  obtain rfl : b = q := Fin.ext h1
  refine (pay1_entry (iblk1 V c 0 t) (iblk1 V c 1 t) (iblk1 V c 2 t) (iblk1 V c 3 t) (iblk1 V c 4 t) p b).trans ?_
  exact denseEntry_block (N := 50000) (D := 128) (O := 40) (M := 2000) _ _ _ _ _ _ _ _ _ _ p a b
    (fun k => iblk_0_apply V c t (ix2 p k) (ix2 a k) h0 rfl)
    (fun k => iblk_1_apply V c t (ix2 p k) (ix2 a k) h0 rfl)
    (fun k => iblk_2_apply V c t (ix2 k b))
    (fun k => iblk_3_apply V c t (ix2 k b))
    (iblk_4_apply V c t (ix2 (0 : Fin 1) b))

/-- WHAT POINT t WRITES BACK is block t of the logits matrix. -/
theorem flushed_5_eq (c : Dev nD) (t : Fin cfg1.N) :
    (dat1 V c).flushed 5 t = ((cfg1.win 5).blk t).view.read (Elt Ideal) (logits V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x40) hz, View.ld_unit_zero (S := S1x40) hz]
  obtain ⟨-, -, -, -, -, -, -, -, -, -, e0, e1⟩ := idx t
  funext y
  refine point_entry V c t y _ ?_ ?_
  · show win1_5.index t 0 * 2000 + 1 * (y 0).val = t.val * 2000 + (y 0).val; rw [e0]; omega
  · show win1_5.index t 1 * 40 + 1 * (y 1).val = (y 1).val; rw [e1]; omega

/-- An index of the output array is in point t's block iff each coordinate is in the block's range. -/
theorem mem_blk_5 (t : Fin cfg1.N) (i : S50000x40.Idx) :
    i ∈ ((cfg1.win 5).blk t).view.set ↔ ∀ a : Fin 2, win1_5.index t a * S2000x40.size a ≤ (i a).val ∧ (i a).val < win1_5.index t a * S2000x40.size a + S2000x40.size a := by
  show i ∈ ((View.whole main_v43).slice (win1_5.rect t)).set ↔ _
  rw [View.set_slice_whole, Rect.mem_set_unit]
  exact Iff.rfl

/-- The point whose block holds row r is r / 2000. -/
def pointOf (i : S50000x40.Idx) : Fin cfg1.N :=
  ⟨(i 0).val / 2000, by have h : (i 0).val < 50000 := (i 0).isLt; rw [show cfg1.N = 25 from N_1]; omega⟩

/-- THE OUTPUT ARRAY after the grid is the logits matrix. -/
theorem final_5 (c : Dev nD) : (dat1 V c).arrAt 5 cfg1.N = logits V c :=
  (dat1 V c).arrAt_eq_of_cover 5 (logits V c) (fun t _ => flushed_5_eq V c t) fun i =>
    ⟨pointOf i, flush1_5 _, (mem_blk_5 _ i).mpr fun a => by
      obtain ⟨-, -, -, -, -, -, -, -, -, -, e0, e1⟩ := idx (pointOf i)
      have h0 : (i 0).val < 50000 := (i 0).isLt
      have h1 : (i 1).val < 40 := (i 1).isLt
      have hp : (pointOf i).val = (i 0).val / 2000 := rfl
      match a with
      | ⟨0, _⟩ => show win1_5.index (pointOf i) 0 * 2000 ≤ (i 0).val ∧ (i 0).val < win1_5.index (pointOf i) 0 * 2000 + 2000; rw [e0, hp]; omega
      | ⟨1, _⟩ => show win1_5.index (pointOf i) 1 * 40 ≤ (i 1).val ∧ (i 1).val < win1_5.index (pointOf i) 1 * 40 + 40; rw [e1]; omega⟩

end Cert.KernelIdeal.LayerTwo

end
-- ==== Proof.HostStages.lean ====
/-
  The host operations around the two grids, stretch by stretch, each read from an arbitrary state of the buffers.
  Before the first grid: the edge list is split into its source row and its destination row; the neighbour count is
  the scatter-sum of ones at the destinations; the count is clipped below at one; its reciprocal is laid out as a
  column; the features are gathered at the (wrapped) sources and scatter-summed at the destinations, and the sums are
  scaled by the reciprocal column; the weights are transposed and the bias becomes a row. Between the grids the same
  gather, scatter-sum and scaling are applied to the first grid's rectified output, and the second layer's weights
  and bias are laid out. A buffer no operation of a stretch writes is read through the stretch unchanged.
-/
import proofs.«153302_j20804821581834_1_alg».proof.Proof.Gen.KernelIdeal.Launch
import Idealize.ShloMosaic.Lib.StableHlo.Run
import Idealize.ShloMosaic.PureOps.Ideal

set_option maxRecDepth 16384

noncomputable section

namespace Cert.KernelIdeal.HostStages

open Cert.KernelIdeal Cert.KernelIdeal.Gen
open Idealize.ShloMosaic Idealize.ShloMosaic.TcCoe Idealize.SL.Sem Idealize.ShloMosaic.StableHlo

/-- The source row of the edge list, as a vector. -/
def srcOf (e : S2x800000.Idx → BitVec 32) : S800000.Idx → BitVec 32 :=
  shapeCast _ (extractStridedSlice S1x800000 ![0, 0] e slices_S2x800000_S1x800000_0_0) shapeCasts_S1x800000_S800000

/-- The destination row of the edge list, as a vector. -/
def dstOf (e : S2x800000.Idx → BitVec 32) : S800000.Idx → BitVec 32 :=
  shapeCast _ (extractStridedSlice S1x800000 ![1, 0] e slices_S2x800000_S1x800000_1_0) shapeCasts_S1x800000_S800000

/-- How many edges end at each node: ones scatter-summed at the destinations. -/
def cntOf (d : S800000.Idx → BitVec 32) : S50000.Idx → EReal :=
  Host.scatterAdd (F := Ideal) (φ := .f32) scatter_S50000_S800000x1_S800000_n_0_0_1
    (broadcastInDim S50000 ![] bcast_S_S50000 (constant (F := Ideal) S_ .f32 0x00000000#32))
    (broadcastInDim S800000x1 ![0] bcast_S800000_S800000x1_0 d)
    (broadcastInDim S800000 ![] bcast_S_S800000 (constant (F := Ideal) S_ .f32 0x3F800000#32))

/-- The count clipped below at the constant one. -/
def clipOf (one : S_.Idx → EReal) (cnt : S50000.Idx → EReal) : S50000.Idx → EReal :=
  maximumf (F := Ideal) (φ := .f32) (broadcastInDim S50000 ![] bcast_S_S50000 (id one)) cnt

/-- The reciprocal of the clipped count, as a column. -/
def invOf (clip : S50000.Idx → EReal) : S50000x1.Idx → EReal :=
  broadcastInDim S50000x1 ![0] bcast_S50000_S50000x1_0
    (Host.divf (F := Ideal) (φ := .f32) (broadcastInDim S50000 ![] bcast_S_S50000 (constant (F := Ideal) S_ .f32 0x3F800000#32)) clip)

/-- The neighbourhood sums of a feature matrix: its rows gathered at the sources (a negative source wrapped once by the
    number of nodes) and scatter-summed at the destinations. -/
def aggOf (x : S50000x128.Idx → EReal) (s d : S800000.Idx → BitVec 32) : S50000x128.Idx → EReal :=
  Host.scatterAdd (F := Ideal) (φ := .f32) scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (Host.gather gather_S50000x128_S800000x1_S800000x128_1_0_n_n_0_1_1128 x
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- The neighbourhood sums scaled row by row by a column. -/
def scaledBy (agg : S50000x128.Idx → EReal) (col : S50000x1.Idx → EReal) : S50000x128.Idx → EReal :=
  mulf (F := Ideal) (φ := .f32) agg (broadcastInDim S50000x128 ![0, 1] bcast_S50000x1_S50000x128_0_1 col)

/-! ## The first stretch: the edge rows, the neighbour count, the constant one -/

theorem A_v1 (Fv : Valuation τ sig (Elt Ideal)) :
    StableHlo.after hostOps0 Fv (Proc.devRef .tc main_v1) = srcOf (Fv (Proc.devRef .tc main_arg1)) := by
  after_results_simp <;> rfl
theorem A_v3 (Fv : Valuation τ sig (Elt Ideal)) :
    StableHlo.after hostOps0 Fv (Proc.devRef .tc main_v3) = dstOf (Fv (Proc.devRef .tc main_arg1)) := by
  after_results_simp <;> rfl
theorem A_v7 (Fv : Valuation τ sig (Elt Ideal)) :
    StableHlo.after hostOps0 Fv (Proc.devRef .tc main_v7) = cntOf (dstOf (Fv (Proc.devRef .tc main_arg1))) := by
  after_results_simp <;> rfl
theorem A_cst_1 (Fv : Valuation τ sig (Elt Ideal)) :
    StableHlo.after hostOps0 Fv (Proc.devRef .tc main_cst_1) = constant (F := Ideal) S_ .f32 0x3F800000#32 := by
  after_results_simp <;> rfl
theorem A_arg0 (Fv : Valuation τ sig (Elt Ideal)) :
    StableHlo.after hostOps0 Fv (Proc.devRef .tc main_arg0) = Fv (Proc.devRef .tc main_arg0) := by after_results_simp
theorem A_arg2 (Fv : Valuation τ sig (Elt Ideal)) :
    StableHlo.after hostOps0 Fv (Proc.devRef .tc main_arg2) = Fv (Proc.devRef .tc main_arg2) := by after_results_simp
theorem A_arg3 (Fv : Valuation τ sig (Elt Ideal)) :
    StableHlo.after hostOps0 Fv (Proc.devRef .tc main_arg3) = Fv (Proc.devRef .tc main_arg3) := by after_results_simp
theorem A_arg4 (Fv : Valuation τ sig (Elt Ideal)) :
    StableHlo.after hostOps0 Fv (Proc.devRef .tc main_arg4) = Fv (Proc.devRef .tc main_arg4) := by after_results_simp
theorem A_arg5 (Fv : Valuation τ sig (Elt Ideal)) :
    StableHlo.after hostOps0 Fv (Proc.devRef .tc main_arg5) = Fv (Proc.devRef .tc main_arg5) := by after_results_simp
theorem A_arg6 (Fv : Valuation τ sig (Elt Ideal)) :
    StableHlo.after hostOps0 Fv (Proc.devRef .tc main_arg6) = Fv (Proc.devRef .tc main_arg6) := by after_results_simp
theorem A_arg7 (Fv : Valuation τ sig (Elt Ideal)) :
    StableHlo.after hostOps0 Fv (Proc.devRef .tc main_arg7) = Fv (Proc.devRef .tc main_arg7) := by after_results_simp

/-! ## The second stretch: the count clipped below at one -/

theorem B_v8 (Fv : Valuation τ sig (Elt Ideal)) :
    StableHlo.after hostOps0_1 Fv (Proc.devRef .tc main_v8)
      = clipOf (Fv (Proc.devRef .tc main_cst_1)) (Fv (Proc.devRef .tc main_v7)) := by
  after_results_simp <;> rfl
theorem B_v1 (Fv : Valuation τ sig (Elt Ideal)) :
    StableHlo.after hostOps0_1 Fv (Proc.devRef .tc main_v1) = Fv (Proc.devRef .tc main_v1) := by after_results_simp
theorem B_v3 (Fv : Valuation τ sig (Elt Ideal)) :
    StableHlo.after hostOps0_1 Fv (Proc.devRef .tc main_v3) = Fv (Proc.devRef .tc main_v3) := by after_results_simp
theorem B_arg0 (Fv : Valuation τ sig (Elt Ideal)) :
    StableHlo.after hostOps0_1 Fv (Proc.devRef .tc main_arg0) = Fv (Proc.devRef .tc main_arg0) := by after_results_simp
theorem B_arg2 (Fv : Valuation τ sig (Elt Ideal)) :
    StableHlo.after hostOps0_1 Fv (Proc.devRef .tc main_arg2) = Fv (Proc.devRef .tc main_arg2) := by after_results_simp
theorem B_arg3 (Fv : Valuation τ sig (Elt Ideal)) :
    StableHlo.after hostOps0_1 Fv (Proc.devRef .tc main_arg3) = Fv (Proc.devRef .tc main_arg3) := by after_results_simp
theorem B_arg4 (Fv : Valuation τ sig (Elt Ideal)) :
    StableHlo.after hostOps0_1 Fv (Proc.devRef .tc main_arg4) = Fv (Proc.devRef .tc main_arg4) := by after_results_simp
theorem B_arg5 (Fv : Valuation τ sig (Elt Ideal)) :
    StableHlo.after hostOps0_1 Fv (Proc.devRef .tc main_arg5) = Fv (Proc.devRef .tc main_arg5) := by after_results_simp
theorem B_arg6 (Fv : Valuation τ sig (Elt Ideal)) :
    StableHlo.after hostOps0_1 Fv (Proc.devRef .tc main_arg6) = Fv (Proc.devRef .tc main_arg6) := by after_results_simp
theorem B_arg7 (Fv : Valuation τ sig (Elt Ideal)) :
    StableHlo.after hostOps0_1 Fv (Proc.devRef .tc main_arg7) = Fv (Proc.devRef .tc main_arg7) := by after_results_simp

/-! ## The third stretch: the reciprocal column, the first mean matrix, the first layer's weights and bias laid out -/

theorem C_v11 (Fv : Valuation τ sig (Elt Ideal)) :
    StableHlo.after hostOps0_2 Fv (Proc.devRef .tc main_v11) = invOf (Fv (Proc.devRef .tc main_v8)) := by
  after_results_simp <;> rfl
theorem C_v23 (Fv : Valuation τ sig (Elt Ideal)) :
    StableHlo.after hostOps0_2 Fv (Proc.devRef .tc main_v23)
      = scaledBy (aggOf (Fv (Proc.devRef .tc main_arg0)) (Fv (Proc.devRef .tc main_v1)) (Fv (Proc.devRef .tc main_v3)))
          (invOf (Fv (Proc.devRef .tc main_v8))) := by
  after_results_simp <;> rfl
theorem C_v24 (Fv : Valuation τ sig (Elt Ideal)) :
    StableHlo.after hostOps0_2 Fv (Proc.devRef .tc main_v24)
      = transpose S128x128 [1, 0] (Fv (Proc.devRef .tc main_arg2)) transposes_S128x128_S128x128_1_0 := by
  after_results_simp <;> rfl
theorem C_v25 (Fv : Valuation τ sig (Elt Ideal)) :
    StableHlo.after hostOps0_2 Fv (Proc.devRef .tc main_v25)
      = transpose S128x128 [1, 0] (Fv (Proc.devRef .tc main_arg3)) transposes_S128x128_S128x128_1_0 := by
  after_results_simp <;> rfl
theorem C_v26 (Fv : Valuation τ sig (Elt Ideal)) :
    StableHlo.after hostOps0_2 Fv (Proc.devRef .tc main_v26)
      = shapeCast _ (Fv (Proc.devRef .tc main_arg4)) shapeCasts_S128_S1x128 := by
  after_results_simp <;> rfl
theorem C_v1 (Fv : Valuation τ sig (Elt Ideal)) :
    StableHlo.after hostOps0_2 Fv (Proc.devRef .tc main_v1) = Fv (Proc.devRef .tc main_v1) := by after_results_simp
theorem C_v3 (Fv : Valuation τ sig (Elt Ideal)) :
    StableHlo.after hostOps0_2 Fv (Proc.devRef .tc main_v3) = Fv (Proc.devRef .tc main_v3) := by after_results_simp
theorem C_arg0 (Fv : Valuation τ sig (Elt Ideal)) :
    StableHlo.after hostOps0_2 Fv (Proc.devRef .tc main_arg0) = Fv (Proc.devRef .tc main_arg0) := by after_results_simp
theorem C_arg5 (Fv : Valuation τ sig (Elt Ideal)) :
    StableHlo.after hostOps0_2 Fv (Proc.devRef .tc main_arg5) = Fv (Proc.devRef .tc main_arg5) := by after_results_simp
theorem C_arg6 (Fv : Valuation τ sig (Elt Ideal)) :
    StableHlo.after hostOps0_2 Fv (Proc.devRef .tc main_arg6) = Fv (Proc.devRef .tc main_arg6) := by after_results_simp
theorem C_arg7 (Fv : Valuation τ sig (Elt Ideal)) :
    StableHlo.after hostOps0_2 Fv (Proc.devRef .tc main_arg7) = Fv (Proc.devRef .tc main_arg7) := by after_results_simp

/-! ## The stretch between the grids: the second mean matrix, the second layer's weights and bias laid out -/

theorem D_v39 (Fv : Valuation τ sig (Elt Ideal)) :
    StableHlo.after hostOps1 Fv (Proc.devRef .tc main_v39)
      = scaledBy (aggOf (Fv (Proc.devRef .tc main_v27_1)) (Fv (Proc.devRef .tc main_v1)) (Fv (Proc.devRef .tc main_v3)))
          (Fv (Proc.devRef .tc main_v11)) := by
  after_results_simp <;> rfl
theorem D_v40 (Fv : Valuation τ sig (Elt Ideal)) :
    StableHlo.after hostOps1 Fv (Proc.devRef .tc main_v40)
      = transpose S128x40 [1, 0] (Fv (Proc.devRef .tc main_arg5)) transposes_S40x128_S128x40_1_0 := by
  after_results_simp <;> rfl
theorem D_v41 (Fv : Valuation τ sig (Elt Ideal)) :
    StableHlo.after hostOps1 Fv (Proc.devRef .tc main_v41)
      = transpose S128x40 [1, 0] (Fv (Proc.devRef .tc main_arg6)) transposes_S40x128_S128x40_1_0 := by
  after_results_simp <;> rfl
theorem D_v42 (Fv : Valuation τ sig (Elt Ideal)) :
    StableHlo.after hostOps1 Fv (Proc.devRef .tc main_v42)
      = shapeCast _ (Fv (Proc.devRef .tc main_arg7)) shapeCasts_S40_S1x40 := by
  after_results_simp <;> rfl
theorem D_v27_0 (Fv : Valuation τ sig (Elt Ideal)) :
    StableHlo.after hostOps1 Fv (Proc.devRef .tc main_v27_0) = Fv (Proc.devRef .tc main_v27_0) := by after_results_simp
theorem D_v27_1 (Fv : Valuation τ sig (Elt Ideal)) :
    StableHlo.after hostOps1 Fv (Proc.devRef .tc main_v27_1) = Fv (Proc.devRef .tc main_v27_1) := by after_results_simp

end Cert.KernelIdeal.HostStages

end
-- ==== Proof.RefDense.lean ====
/-
  The reference program's stages as the dense stage. Its embedding is the dense stage of (neighbourhood sums divided
  row by row by the clipped neighbour count, features, transposed weights, bias row); its hidden features are the
  rectified embedding; its logits are the dense stage of the hidden features' neighbourhood means, the hidden
  features, the second layer's transposed weights and bias row. The reference computes the clipped neighbour count
  twice, from the same edge list, and gets the same vector both times.
-/
import proofs.«153302_j20804821581834_1_alg».proof.Proof.Gen.ReferenceIdeal.Read
import proofs.«153302_j20804821581834_1_alg».proof.Proof.DenseLayer

noncomputable section

namespace Cert.ReferenceIdeal.Dense

open Cert.ReferenceIdeal Cert.ReferenceIdeal.Gen Cert.ReferenceIdeal.Read Cert.Sage Cert.Lib.PlainProduct
open Idealize.ShloMosaic Idealize.ShloMosaic.TcCoe Idealize.ShloMosaic.ValueIdx

theorem plain1 : IsPlain dot_S50000x128_S128x128_S50000x128_1_0_0_1_n_n := ⟨rfl, rfl, rfl, rfl, rfl, rfl⟩
theorem plain2 : IsPlain dot_S50000x128_S128x40_S50000x40_1_0_0_1_n_n := ⟨rfl, rfl, rfl, rfl, rfl, rfl⟩

variable (x0 : S50000x128.Idx → EReal) (x1 : S2x800000.Idx → BitVec 32) (x2 x3 : S128x128.Idx → EReal) (x4 : S128.Idx → EReal)
  (x5 x6 : S40x128.Idx → EReal) (x7 : S40.Idx → EReal)

/-- The embedding is the dense stage of the first layer's operands. -/
theorem emb_eq : val_main_v29 (F := Ideal) x0 x1 x2 x3 x4
    = denseFn (N := 50000) (D := 128) (O := 128) (val_main_v21 (F := Ideal) x0 x1) x0 (val_main_v22 (F := Ideal) x2)
        (val_main_v24 (F := Ideal) x3) (val_main_v27 (F := Ideal) x4) := by
  funext i
  obtain ⟨a, b, rfl⟩ : ∃ (a : Fin 50000) (b : Fin 128), i = ix2 a b := ⟨i 0, i 1, eq_ix2 i⟩
  unfold val_main_v29 val_main_v26 val_main_v28 val_main_v23 val_main_v25
  exact host_entry _ plain1 rfl rfl _ _ _ _ _ _ a b

/-- The hidden features are the rectified embedding. -/
theorem hidden_eq : val_main_v30 (F := Ideal) x0 x1 x2 x3 x4 = reluFn (val_main_v29 (F := Ideal) x0 x1 x2 x3 x4) := by
  funext i
  unfold val_main_v30 val_main_call1_v0 val_main_call1_cst
  exact relu_host_apply _ _ i

/-- The logits are the dense stage of the second layer's operands. -/
theorem logits_eq : val_main_v56 (F := Ideal) x0 x1 x2 x3 x4 x5 x6 x7
    = denseFn (N := 50000) (D := 128) (O := 40) (val_main_v48 (F := Ideal) x0 x1 x2 x3 x4) (val_main_v30 (F := Ideal) x0 x1 x2 x3 x4)
        (val_main_v49 (F := Ideal) x5) (val_main_v51 (F := Ideal) x6) (val_main_v54 (F := Ideal) x7) := by
  funext i
  obtain ⟨a, b, rfl⟩ : ∃ (a : Fin 50000) (b : Fin 40), i = ix2 a b := ⟨i 0, i 1, eq_ix2 i⟩
  unfold val_main_v56 val_main_v53 val_main_v55 val_main_v50 val_main_v52
  exact host_entry _ plain2 rfl rfl _ _ _ _ _ _ a b

/-- The vector of ones the reciprocal count is computed from. -/
abbrev ones : S50000.Idx → EReal := broadcastInDim S50000 ![] bcast_S_S50000 (constant (F := Ideal) S_ .f32 0x3F800000#32)

/-- The clipped neighbour count is nowhere zero. -/
theorem clip_ne (i : S50000.Idx) : val_main_v18 (F := Ideal) x1 i ≠ 0 := by
  unfold val_main_v18 val_main_call0_v1 val_main_call0_v0 val_main_cst_3
  exact clip_ne_zero _ _ i

/-- The second computation of the clipped neighbour count gives the first one's vector. -/
theorem clip_again : val_main_v45 (F := Ideal) x1 = val_main_v18 (F := Ideal) x1 := rfl

/-- First layer: the neighbourhood sums scaled by the reciprocal clipped count are the reference's mean. -/
theorem mean1_eq : mulf (F := Ideal) (s := S50000x128) (φ := .f32) (val_main_v13 (F := Ideal) x0 x1)
      (broadcastInDim S50000x128 ![0, 1] bcast_S50000x1_S50000x128_0_1 (broadcastInDim S50000x1 ![0] bcast_S50000_S50000x1_0
        (Host.divf ones (val_main_v18 (F := Ideal) x1))))
    = val_main_v21 (F := Ideal) x0 x1 := by
  unfold val_main_v21 val_main_v20 val_main_v19
  exact mean_scale (N := 50000) (D := 128) _ _ _ _ _ (ones_apply _) (clip_ne x1)

/-- Second layer: the same for the hidden features' neighbourhood sums. -/
theorem mean2_eq : mulf (F := Ideal) (s := S50000x128) (φ := .f32) (val_main_v40 (F := Ideal) x0 x1 x2 x3 x4)
      (broadcastInDim S50000x128 ![0, 1] bcast_S50000x1_S50000x128_0_1 (broadcastInDim S50000x1 ![0] bcast_S50000_S50000x1_0
        (Host.divf ones (val_main_v18 (F := Ideal) x1))))
    = val_main_v48 (F := Ideal) x0 x1 x2 x3 x4 := by
  unfold val_main_v48 val_main_v47 val_main_v46
  rw [clip_again]
  exact mean_scale (N := 50000) (D := 128) _ _ _ _ _ (ones_apply _) (clip_ne x1)

end Cert.ReferenceIdeal.Dense

end
-- ==== Proof.KernelValue.lean ====
/-
  The idealized kernel program's two results as the reference's own stages. The buffers are followed through the six
  segments: the host stretches give the first layer's operands as functions of the arguments; the first grid turns
  them into the embedding and its rectification; the stretch between the grids gives the second layer's operands; the
  second grid turns them into the logits. The first layer's mean matrix is the neighbourhood sums SCALED by the
  reciprocal clipped count where the reference DIVIDES by the clipped count; the clipped count is at least one, so
  the two agree on the extended reals. Everything else is the same operations on the same arrays.
-/
import proofs.«153302_j20804821581834_1_alg».proof.Proof.Gen.KernelIdeal.Frame
import proofs.«153302_j20804821581834_1_alg».proof.Proof.Gen.ReferenceIdeal.Read
import proofs.«153302_j20804821581834_1_alg».proof.Proof.DenseLayer
import proofs.«153302_j20804821581834_1_alg».proof.Proof.LayerOne
import proofs.«153302_j20804821581834_1_alg».proof.Proof.LayerTwo
import proofs.«153302_j20804821581834_1_alg».proof.Proof.HostStages
import proofs.«153302_j20804821581834_1_alg».proof.Proof.RefDense
import Idealize.ShloMosaic.Lib.ValueLayout

set_option maxRecDepth 16384

noncomputable section

namespace Cert.KernelIdeal.Whole

open Cert.KernelIdeal Cert.KernelIdeal.Gen Cert.KernelIdeal.HostStages Cert.Sage
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The clipped neighbour count, from the edge list. -/
abbrev clip : S50000.Idx → EReal :=
  clipOf (constant (F := Ideal) S_ .f32 0x3F800000#32) (cntOf (dstOf (m ((c.tc : Thread nD τ).loc main_arg1))))

/-! ## After the first stretch -/

theorem W1_v1 : W1 m ρ c (Proc.devRef .tc main_v1) = srcOf (m ((c.tc : Thread nD τ).loc main_arg1)) := A_v1 (W0 m ρ c)
theorem W1_v3 : W1 m ρ c (Proc.devRef .tc main_v3) = dstOf (m ((c.tc : Thread nD τ).loc main_arg1)) := A_v3 (W0 m ρ c)
theorem W1_v7 : W1 m ρ c (Proc.devRef .tc main_v7) = cntOf (dstOf (m ((c.tc : Thread nD τ).loc main_arg1))) := A_v7 (W0 m ρ c)
theorem W1_cst_1 : W1 m ρ c (Proc.devRef .tc main_cst_1) = constant (F := Ideal) S_ .f32 0x3F800000#32 := A_cst_1 (W0 m ρ c)
theorem W1_arg0 : W1 m ρ c (Proc.devRef .tc main_arg0) = (m ((c.tc : Thread nD τ).loc main_arg0)) := A_arg0 (W0 m ρ c)
theorem W1_arg2 : W1 m ρ c (Proc.devRef .tc main_arg2) = (m ((c.tc : Thread nD τ).loc main_arg2)) := A_arg2 (W0 m ρ c)
theorem W1_arg3 : W1 m ρ c (Proc.devRef .tc main_arg3) = (m ((c.tc : Thread nD τ).loc main_arg3)) := A_arg3 (W0 m ρ c)
theorem W1_arg4 : W1 m ρ c (Proc.devRef .tc main_arg4) = (m ((c.tc : Thread nD τ).loc main_arg4)) := A_arg4 (W0 m ρ c)
theorem W1_arg5 : W1 m ρ c (Proc.devRef .tc main_arg5) = (m ((c.tc : Thread nD τ).loc main_arg5)) := A_arg5 (W0 m ρ c)
theorem W1_arg6 : W1 m ρ c (Proc.devRef .tc main_arg6) = (m ((c.tc : Thread nD τ).loc main_arg6)) := A_arg6 (W0 m ρ c)
theorem W1_arg7 : W1 m ρ c (Proc.devRef .tc main_arg7) = (m ((c.tc : Thread nD τ).loc main_arg7)) := A_arg7 (W0 m ρ c)

/-! ## After the second stretch -/

theorem W2_v1 : W2 m ρ c (Proc.devRef .tc main_v1) = srcOf (m ((c.tc : Thread nD τ).loc main_arg1)) := (B_v1 (W1 m ρ c)).trans (W1_v1 m ρ c)
theorem W2_v3 : W2 m ρ c (Proc.devRef .tc main_v3) = dstOf (m ((c.tc : Thread nD τ).loc main_arg1)) := (B_v3 (W1 m ρ c)).trans (W1_v3 m ρ c)
theorem W2_v8 : W2 m ρ c (Proc.devRef .tc main_v8) = clip m c :=
  (B_v8 (W1 m ρ c)).trans (by rw [W1_cst_1 m ρ c, W1_v7 m ρ c])
theorem W2_arg0 : W2 m ρ c (Proc.devRef .tc main_arg0) = (m ((c.tc : Thread nD τ).loc main_arg0)) := (B_arg0 (W1 m ρ c)).trans (W1_arg0 m ρ c)
theorem W2_arg2 : W2 m ρ c (Proc.devRef .tc main_arg2) = (m ((c.tc : Thread nD τ).loc main_arg2)) := (B_arg2 (W1 m ρ c)).trans (W1_arg2 m ρ c)
theorem W2_arg3 : W2 m ρ c (Proc.devRef .tc main_arg3) = (m ((c.tc : Thread nD τ).loc main_arg3)) := (B_arg3 (W1 m ρ c)).trans (W1_arg3 m ρ c)
theorem W2_arg4 : W2 m ρ c (Proc.devRef .tc main_arg4) = (m ((c.tc : Thread nD τ).loc main_arg4)) := (B_arg4 (W1 m ρ c)).trans (W1_arg4 m ρ c)
theorem W2_arg5 : W2 m ρ c (Proc.devRef .tc main_arg5) = (m ((c.tc : Thread nD τ).loc main_arg5)) := (B_arg5 (W1 m ρ c)).trans (W1_arg5 m ρ c)
theorem W2_arg6 : W2 m ρ c (Proc.devRef .tc main_arg6) = (m ((c.tc : Thread nD τ).loc main_arg6)) := (B_arg6 (W1 m ρ c)).trans (W1_arg6 m ρ c)
theorem W2_arg7 : W2 m ρ c (Proc.devRef .tc main_arg7) = (m ((c.tc : Thread nD τ).loc main_arg7)) := (B_arg7 (W1 m ρ c)).trans (W1_arg7 m ρ c)

/-! ## After the third stretch: what the first grid finds -/

theorem W3_v1 : W3 m ρ c (Proc.devRef .tc main_v1) = srcOf (m ((c.tc : Thread nD τ).loc main_arg1)) := (C_v1 (W2 m ρ c)).trans (W2_v1 m ρ c)
theorem W3_v3 : W3 m ρ c (Proc.devRef .tc main_v3) = dstOf (m ((c.tc : Thread nD τ).loc main_arg1)) := (C_v3 (W2 m ρ c)).trans (W2_v3 m ρ c)
theorem W3_arg0 : W3 m ρ c (Proc.devRef .tc main_arg0) = (m ((c.tc : Thread nD τ).loc main_arg0)) := (C_arg0 (W2 m ρ c)).trans (W2_arg0 m ρ c)
theorem W3_arg5 : W3 m ρ c (Proc.devRef .tc main_arg5) = (m ((c.tc : Thread nD τ).loc main_arg5)) := (C_arg5 (W2 m ρ c)).trans (W2_arg5 m ρ c)
theorem W3_arg6 : W3 m ρ c (Proc.devRef .tc main_arg6) = (m ((c.tc : Thread nD τ).loc main_arg6)) := (C_arg6 (W2 m ρ c)).trans (W2_arg6 m ρ c)
theorem W3_arg7 : W3 m ρ c (Proc.devRef .tc main_arg7) = (m ((c.tc : Thread nD τ).loc main_arg7)) := (C_arg7 (W2 m ρ c)).trans (W2_arg7 m ρ c)
theorem W3_v11 : W3 m ρ c (Proc.devRef .tc main_v11) = invOf (clip m c) :=
  (C_v11 (W2 m ρ c)).trans (by rw [W2_v8 m ρ c])
theorem W3_v23 : W3 m ρ c (Proc.devRef .tc main_v23)
    = scaledBy (aggOf (m ((c.tc : Thread nD τ).loc main_arg0)) (srcOf (m ((c.tc : Thread nD τ).loc main_arg1))) (dstOf (m ((c.tc : Thread nD τ).loc main_arg1)))) (invOf (clip m c)) :=
  (C_v23 (W2 m ρ c)).trans (by rw [W2_arg0 m ρ c, W2_v1 m ρ c, W2_v3 m ρ c, W2_v8 m ρ c])
theorem W3_v24 : W3 m ρ c (Proc.devRef .tc main_v24)
    = transpose S128x128 [1, 0] (m ((c.tc : Thread nD τ).loc main_arg2)) transposes_S128x128_S128x128_1_0 :=
  (C_v24 (W2 m ρ c)).trans (by rw [W2_arg2 m ρ c])
theorem W3_v25 : W3 m ρ c (Proc.devRef .tc main_v25)
    = transpose S128x128 [1, 0] (m ((c.tc : Thread nD τ).loc main_arg3)) transposes_S128x128_S128x128_1_0 :=
  (C_v25 (W2 m ρ c)).trans (by rw [W2_arg3 m ρ c])
theorem W3_v26 : W3 m ρ c (Proc.devRef .tc main_v26) = shapeCast _ (m ((c.tc : Thread nD τ).loc main_arg4)) shapeCasts_S128_S1x128 :=
  (C_v26 (W2 m ρ c)).trans (by rw [W2_arg4 m ρ c])

/-! ## The first grid's operands and results as the reference's stages -/

/-- The first mean matrix is the reference's. -/
theorem mean1 : (V3 m ρ c (Pipeline.arrRef spec0 0) : S50000x128.Idx → EReal)
    = Cert.ReferenceIdeal.Read.val_main_v21 (F := Ideal) (m ((c.tc : Thread nD τ).loc main_arg0)) (m ((c.tc : Thread nD τ).loc main_arg1)) :=
  (W3_v23 m ρ c).trans (Eq.trans rfl (Cert.ReferenceIdeal.Dense.mean1_eq (m ((c.tc : Thread nD τ).loc main_arg0)) (m ((c.tc : Thread nD τ).loc main_arg1))))

/-- The first layer's bias row, entry by entry, is the reference's. -/
theorem bias1 (j : Fin 128) : (V3 m ρ c (Pipeline.arrRef spec0 4) : S1x128.Idx → EReal) (ix2 (0 : Fin 1) j)
    = Cert.ReferenceIdeal.Read.val_main_v27 (F := Ideal) (m ((c.tc : Thread nD τ).loc main_arg4)) (ix2 (0 : Fin 1) j) := by
  rw [show (V3 m ρ c (Pipeline.arrRef spec0 4) : S1x128.Idx → EReal) = shapeCast _ (m ((c.tc : Thread nD τ).loc main_arg4)) shapeCasts_S128_S1x128 from W3_v26 m ρ c,
    Cert.ReferenceIdeal.Read.val_main_v27_apply]
  exact (shapeCast_a_1a_apply _ _ (0 : Fin 1) j).trans (congrArg _ (funext fun a => by match a with | ⟨0, _⟩ => rfl))

/-- THE EMBEDDING the first grid leaves is the reference's embedding. -/
theorem emb_eq : LayerOne.emb (V3 m ρ) c
    = Cert.ReferenceIdeal.Read.val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [Cert.ReferenceIdeal.Dense.emb_eq]
  exact denseFn_congr (mean1 m ρ c) (W3_arg0 m ρ c) (W3_v24 m ρ c) (W3_v25 m ρ c) (bias1 m ρ c)

/-- THE HIDDEN FEATURES the first grid leaves are the reference's. -/
theorem hidden_eq : reluFn (LayerOne.emb (V3 m ρ) c)
    = Cert.ReferenceIdeal.Read.val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [emb_eq m ρ c, Cert.ReferenceIdeal.Dense.hidden_eq]

/-! ## After the first grid -/

theorem W4_v1 : W4 m ρ c (Proc.devRef .tc main_v1) = srcOf (m ((c.tc : Thread nD τ).loc main_arg1)) := (W4_of_ne m ρ c main_v1 (by decide)).trans (W3_v1 m ρ c)
theorem W4_v3 : W4 m ρ c (Proc.devRef .tc main_v3) = dstOf (m ((c.tc : Thread nD τ).loc main_arg1)) := (W4_of_ne m ρ c main_v3 (by decide)).trans (W3_v3 m ρ c)
theorem W4_v11 : W4 m ρ c (Proc.devRef .tc main_v11) = invOf (clip m c) := (W4_of_ne m ρ c main_v11 (by decide)).trans (W3_v11 m ρ c)
theorem W4_arg5 : W4 m ρ c (Proc.devRef .tc main_arg5) = (m ((c.tc : Thread nD τ).loc main_arg5)) := (W4_of_ne m ρ c main_arg5 (by decide)).trans (W3_arg5 m ρ c)
theorem W4_arg6 : W4 m ρ c (Proc.devRef .tc main_arg6) = (m ((c.tc : Thread nD τ).loc main_arg6)) := (W4_of_ne m ρ c main_arg6 (by decide)).trans (W3_arg6 m ρ c)
theorem W4_arg7 : W4 m ρ c (Proc.devRef .tc main_arg7) = (m ((c.tc : Thread nD τ).loc main_arg7)) := (W4_of_ne m ρ c main_arg7 (by decide)).trans (W3_arg7 m ρ c)
theorem W4_v27_0 : W4 m ρ c (Proc.devRef .tc main_v27_0)
    = Cert.ReferenceIdeal.Read.val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W4_arr m ρ c 5).trans ((LayerOne.final_5 (V3 m ρ) c).trans (emb_eq m ρ c))
theorem W4_v27_1 : W4 m ρ c (Proc.devRef .tc main_v27_1)
    = Cert.ReferenceIdeal.Read.val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W4_arr m ρ c 6).trans ((LayerOne.final_6 (V3 m ρ) c).trans (hidden_eq m ρ c))

/-! ## After the stretch between the grids: what the second grid finds -/

theorem W5_v27_0 : W5 m ρ c (Proc.devRef .tc main_v27_0)
    = Cert.ReferenceIdeal.Read.val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (D_v27_0 (W4 m ρ c)).trans (W4_v27_0 m ρ c)
theorem W5_v27_1 : W5 m ρ c (Proc.devRef .tc main_v27_1)
    = Cert.ReferenceIdeal.Read.val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (D_v27_1 (W4 m ρ c)).trans (W4_v27_1 m ρ c)
theorem W5_v39 : W5 m ρ c (Proc.devRef .tc main_v39)
    = scaledBy (aggOf (Cert.ReferenceIdeal.Read.val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
        (srcOf (m ((c.tc : Thread nD τ).loc main_arg1))) (dstOf (m ((c.tc : Thread nD τ).loc main_arg1)))) (invOf (clip m c)) :=
  (D_v39 (W4 m ρ c)).trans (by rw [W4_v27_1 m ρ c, W4_v1 m ρ c, W4_v3 m ρ c, W4_v11 m ρ c])
theorem W5_v40 : W5 m ρ c (Proc.devRef .tc main_v40)
    = transpose S128x40 [1, 0] (m ((c.tc : Thread nD τ).loc main_arg5)) transposes_S40x128_S128x40_1_0 :=
  (D_v40 (W4 m ρ c)).trans (by rw [W4_arg5 m ρ c])
theorem W5_v41 : W5 m ρ c (Proc.devRef .tc main_v41)
    = transpose S128x40 [1, 0] (m ((c.tc : Thread nD τ).loc main_arg6)) transposes_S40x128_S128x40_1_0 :=
  (D_v41 (W4 m ρ c)).trans (by rw [W4_arg6 m ρ c])
theorem W5_v42 : W5 m ρ c (Proc.devRef .tc main_v42) = shapeCast _ (m ((c.tc : Thread nD τ).loc main_arg7)) shapeCasts_S40_S1x40 :=
  (D_v42 (W4 m ρ c)).trans (by rw [W4_arg7 m ρ c])

/-! ## The second grid's operands and result as the reference's stages -/

/-- The second mean matrix is the reference's. -/
theorem mean2 : (V5 m ρ c (Pipeline.arrRef spec1 0) : S50000x128.Idx → EReal)
    = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W5_v39 m ρ c).trans (Eq.trans rfl (Cert.ReferenceIdeal.Dense.mean2_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))))

/-- The second layer's bias row, entry by entry, is the reference's. -/
theorem bias2 (j : Fin 40) : (V5 m ρ c (Pipeline.arrRef spec1 4) : S1x40.Idx → EReal) (ix2 (0 : Fin 1) j)
    = Cert.ReferenceIdeal.Read.val_main_v54 (F := Ideal) (m ((c.tc : Thread nD τ).loc main_arg7)) (ix2 (0 : Fin 1) j) := by
  rw [show (V5 m ρ c (Pipeline.arrRef spec1 4) : S1x40.Idx → EReal) = shapeCast _ (m ((c.tc : Thread nD τ).loc main_arg7)) shapeCasts_S40_S1x40 from W5_v42 m ρ c,
    Cert.ReferenceIdeal.Read.val_main_v54_apply]
  exact (shapeCast_a_1a_apply _ _ (0 : Fin 1) j).trans (congrArg _ (funext fun a => by match a with | ⟨0, _⟩ => rfl))

/-- THE LOGITS the second grid leaves are the reference's logits. -/
theorem logits_eq : LayerTwo.logits (V5 m ρ) c
    = Cert.ReferenceIdeal.Read.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [Cert.ReferenceIdeal.Dense.logits_eq]
  exact denseFn_congr (mean2 m ρ c) (W5_v27_1 m ρ c) (W5_v40 m ρ c) (W5_v41 m ρ c) (bias2 m ρ c)

/-! ## The two result buffers after the last segment -/

theorem W6_v43 : W6 m ρ c (Proc.devRef .tc main_v43)
    = Cert.ReferenceIdeal.Read.val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (W6_arr m ρ c 5).trans ((LayerTwo.final_5 (V5 m ρ) c).trans (logits_eq m ρ c))

theorem W6_v27_0 : W6 m ρ c (Proc.devRef .tc main_v27_0)
    = Cert.ReferenceIdeal.Read.val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (W6_of_ne m ρ c main_v27_0 (by decide)).trans (W5_v27_0 m ρ c)

end Cert.KernelIdeal.Whole

end
-- ==== Proof.lean ====
/-
  A two-layer mean-aggregation graph network: the kernel program against its plain reference, on the extended reals.

  Both programs gather node features along the edges' sources, scatter-sum them at the destinations, turn the sums
  into means with the clipped neighbour count, and apply to every node the dense stage
      mean · Wlᵀ + x · Wrᵀ + b,
  twice, with a rectifier between the layers; the results are the second layer's output (the logits) and the first
  layer's output (the embedding). They differ in three ways, none of which changes a value on the extended reals:
  the kernel program scales the sums by the reciprocal 1 / max(1, count) where the reference divides by
  max(1, count) (equal because max(1, count) is not zero: no finiteness is used); it computes the dense stage on
  blocks of 2000 rows with the matrix unit, after narrowing the operands' float format (the identity here), where the
  reference uses two whole contractions (the same sums, row by row); and it computes the clipped count once where the
  reference computes it twice from the same edge list. The frames of the two kernel programs are the generated ones;
  the reference's frame is its generated run with the results dropped; the idealization rewrote nothing.
-/
import proofs.«153302_j20804821581834_1_alg».proof.Defs
import proofs.«153302_j20804821581834_1_alg».proof.Proof.Gen.Kernel
import proofs.«153302_j20804821581834_1_alg».proof.Proof.Gen.Kernel.Skeleton
import proofs.«153302_j20804821581834_1_alg».proof.Proof.Gen.Kernel.Launch
import proofs.«153302_j20804821581834_1_alg».proof.Proof.Gen.Kernel.Points
import proofs.«153302_j20804821581834_1_alg».proof.Proof.Gen.Kernel.Frame
import proofs.«153302_j20804821581834_1_alg».proof.Proof.Gen.KernelIdeal
import proofs.«153302_j20804821581834_1_alg».proof.Proof.Gen.KernelIdeal.Skeleton
import proofs.«153302_j20804821581834_1_alg».proof.Proof.Gen.KernelIdeal.Launch
import proofs.«153302_j20804821581834_1_alg».proof.Proof.Gen.KernelIdeal.Points
import proofs.«153302_j20804821581834_1_alg».proof.Proof.Gen.KernelIdeal.Frame
import proofs.«153302_j20804821581834_1_alg».proof.Proof.Gen.ReferenceIdeal
import proofs.«153302_j20804821581834_1_alg».proof.Proof.Gen.ReferenceIdeal.Run
import proofs.«153302_j20804821581834_1_alg».proof.Proof.Gen.ReferenceIdeal.Read
import proofs.«153302_j20804821581834_1_alg».proof.Proof.Gen.Pre_finite_inputs
import proofs.«153302_j20804821581834_1_alg».proof.Proof.KernelRun
import proofs.«153302_j20804821581834_1_alg».proof.Proof.KernelValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernel_ideal : Cert.frame_KernelIdeal := fun m ρ _ => Cert.KernelIdeal.Gen.frame m ρ

/-- The idealized reference runs and leaves its arguments as launched: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the arguments both idealized programs end with the same logits and the same
    embedding: the kernel program's two result buffers hold the reference's own stages of the arguments. -/
theorem algebraic : Cert.algebraic_KernelIdeal_ReferenceIdeal := by
  intro m ρ m' ρ' _ hagree
  refine ⟨fun c => Cert.ReferenceIdeal.Read.val_main_v56 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    fun c => Cert.ReferenceIdeal.Read.val_main_v29 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Whole.W6_v43 m ρ c),
        (h c).2.1.trans (Cert.KernelIdeal.Whole.W6_v27_0 m ρ c), (h c).2.2⟩)
      (Cert.KernelIdeal.Named.run (F := Ideal) m ρ)
  · refine (θ_run Cert.ReferenceIdeal.defs _ _).mono (fun _ h c => ?_)
      (Cert.ReferenceIdeal.Value.run (F := Ideal) m' ρ')
    obtain ⟨e0, e1, e2, e3, e4, e5, e6, e7⟩ := hagree c
    exact ⟨(h c).1.trans ((Cert.ReferenceIdeal.Read.val_main_v56_eq m' c).trans (by rw [e0, e1, e2, e3, e4, e5, e6, e7])),
      (h c).2.1.trans ((Cert.ReferenceIdeal.Read.val_main_v29_eq _ _ _ _ _).trans (by rw [e0, e1, e2, e3, e4])),
      (h c).2.2⟩

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
